-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x64 .f32) (main_arg1 : FVec F S4096x4096 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x64 : Shape := ⟨2, ![4096, 64]⟩
abbrev S4096x4096 : Shape := ⟨2, ![4096, 4096]⟩
abbrev S64x4096 : Shape := ⟨2, ![64, 4096]⟩
abbrev S512x4096 : Shape := ⟨2, ![512, 4096]⟩
abbrev S64x512 : Shape := ⟨2, ![64, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S64x4096, .f32⟩
  | .hbm, ⟨3, _⟩ => ⟨S4096x64, .f32⟩
  | .local _ .vmem, ⟨0, _⟩ => ⟨S4096x64, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S64x512, .f32⟩
  | .local _ .vmem, ⟨6, _⟩ => ⟨S64x512, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi arg0 v0
  let c0_i32 : BitVec 32 := 0#32
  let c0_i32_0 : BitVec 32 := 0#32
  ![c0_i32.toNat, v1.toNat]

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S64x4096_S4096x64_1_0 : S64x4096.Transposes [1, 0] S4096x64
  inb_S4096x64_S4096x64_0_0 : ∀ a, (![0, 0] : Fin 2 → Nat) a + S4096x64.size a ≤ S4096x64.size a
  h_S4096x64 : 0 < S4096x64.numel
  inb_S512x4096_S512x4096_0_0 : ∀ a, (![0, 0] : Fin 2 → Nat) a + S512x4096.size a ≤ S512x4096.size a
  h_S512x4096 : 0 < S512x4096.numel
  inb_S64x512_S64x512_0_0 : ∀ a, (![0, 0] : Fin 2 → Nat) a + S64x512.size a ≤ S64x512.size a
  h_S64x512 : 0 < S64x512.numel
  dot_S4096x64_S512x4096_S64x512_0_1_1_0_n_n_wf : DotDims.WF S4096x64 S512x4096 S64x512 [0] [1] [1] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S4096x64.size a
  hwx0_0 : ∀ i : grid0.Coords, EltTy.bits .f32 = 32 ∨ (Rect.block (s := S4096x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .f32 = 32 ∨ (Rect.block (s := S4096x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x4096.size a
  hwx0_3 : ∀ i : grid0.Coords, EltTy.bits .f32 = 32 ∨ (Rect.block (s := S64x4096) S64x512.size (cc0_transform_3 i) (hinb0_3 i)).WholeWords (EltTy.packing .f32)

variable [Facts₀]

def dot_S4096x64_S512x4096_S64x512_0_1_1_0_n_n : DotDims S4096x64 S512x4096 S64x512 where
  lhsContracting := [0]
  rhsContracting := [1]
  lhsNonContracting := [1]
  rhsNonContracting := [0]
  lhsBatch := []
  rhsBatch := []
  wf := dot_S4096x64_S512x4096_S64x512_0_1_1_0_n_n_wf

abbrev win0_0 : Pipeline.Window sig grid0 :=
  Pipeline.Window.ofSpec (Memref.whole main_arg0) S4096x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S64x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond1 i == 1#1) && !(k0_cond2 i == 1#1) | ⟨_ + 4, h⟩ => absurd h (Nat.not_lt.2 (Nat.le_add_left _ _))

class Facts : Prop extends Facts₀ where

variable [Facts]
-- ==== ReferenceIdeal.lean ====
abbrev S4096x64 : Shape := ⟨2, ![4096, 64]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.BitsData.lean ====
/-
  The proof data of the one pallas_call, generic in the float instance.

  The call runs on a 4 × 2 grid, point t = 2·i + j.  Window 0 is the whole 4096 × 64 input x at every point;
  windows 1 and 2 are both views of the ONE 4096 × 4096 weight array W — window 1 its row block i, window 2 its
  row block 4 + i — and window 3 is column block i + 4·j of the 64 × 4096 result.  At an even point (j = 0) the body
  stores into window 3 the product of x (contracted on its rows) with window 1's block (contracted on its columns);
  at an odd point (j = 1) the same product with window 2's block.  Every point stores the whole 64 × 512 block, and
  every point writes it back, so no point is idle for the result window.

  Because windows 1 and 2 read the same array, each holds one half of that array's full share.
-/
import proofs.«144925_g11922829214311_fold_wed_m_296_30_alg».proof.Proof.Gen.Kernel.Launch
import proofs.«144925_g11922829214311_fold_wed_m_296_30_alg».proof.Proof.Gen.Kernel.Skeleton
import proofs.«144925_g11922829214311_fold_wed_m_296_30_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers when the region is entered: as launched (no host operation precedes the call). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's three whole-buffer accesses. -/
abbrev rX : Rect S4096x64 := Rect.unit (s := S4096x64) ![0, 0] S4096x64.size inb_S4096x64_S4096x64_0_0
abbrev rW : Rect S512x4096 := Rect.unit (s := S512x4096) ![0, 0] S512x4096.size inb_S512x4096_S512x4096_0_0
abbrev rO : Rect S64x512 := Rect.unit (s := S64x512) ![0, 0] S64x512.size inb_S64x512_S64x512_0_0

/-- What the body leaves in the result window's buffer, from the x block and the weight block it multiplied: its one
    store, of the whole buffer. -/
def outO (x : Vec F S4096x64 .f32) (w : Vec F S512x4096 .f32) : Vec F S64x512 .f32 :=
  View.canon [⟨rO, k0_pay1 (View.ld x rX) (View.ld w rW)⟩]

/-- The weight block a point multiplies by: window 1's at an even point, window 2's at an odd one. -/
def wsel (c : Dev nD) (t : Fin cfg0.N) : Vec F S512x4096 .f32 :=
  if t.val % 2 = 0 then iblk m c 1 t else iblk m c 2 t

/-- The proof data: the arrays as launched; after the body each input's buffer still at its block and the result's at
    `outO` of the x block and the selected weight block; the invariant the scoped rest and the generator register;
    nothing owed; the two windows on the weight array at half its share each. -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO (iblk m c 0 t) (wsel m c t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dat0 m c).A w = V m c (Pipeline.arrRef spec0 w) := by
  dsimp only [dat0]

theorem after_0 (c : Dev nD) (t : Fin cfg0.N) : (dat0 m c).after 0 t = iblk m c 0 t := by dsimp only [dat0]
theorem after_1 (c : Dev nD) (t : Fin cfg0.N) : (dat0 m c).after 1 t = iblk m c 1 t := by dsimp only [dat0]
theorem after_2 (c : Dev nD) (t : Fin cfg0.N) : (dat0 m c).after 2 t = iblk m c 2 t := by dsimp only [dat0]
theorem after_3 (c : Dev nD) (t : Fin cfg0.N) : (dat0 m c).after 3 t = outO (iblk m c 0 t) (wsel m c t) := by dsimp only [dat0]

/-- What the program returns on core `c`: the host's transpose of the 64 × 4096 array the pallas_call leaves (its
    write-backs folded over the grid). -/
def kres (c : Dev nD) : Buf (Elt F) ((c : Thread nD τ).loc main_v0) :=
  transpose S4096x64 [1, 0] ((dat0 m c).arrAt 3 cfg0.N) transposes_S64x4096_S4096x64_1_0

end Cert.Kernel.Hand

end
-- ==== Proof.BitsBody.lean ====
/-
  The body obligation of the one pallas_call, generic in the float instance.

  The body has two branches on the second grid coordinate j.  At an even point (j = 0) the first branch runs and the
  second does not; at an odd point (j = 1) it is the other way round.  Either way exactly one whole-buffer store into the
  result window happens: the product of the x block with the weight block of window 1 (even) or window 2 (odd).  The
  three input buffers are read and left as found.  An input window's buffer holds its block of the launch array at every
  point, fetched there or not, because its block index does not move between fetches.
-/
import proofs.«144925_g11922829214311_fold_wed_m_296_30_alg».proof.Proof.BitsData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Which branch runs where -/

/-- The first branch (j = 0) runs exactly at the even points. -/
theorem hcond1 : ∀ t : Fin cfg0.N, k0_cond1 (grid0.coords t) = 1#1 ↔ t.val % 2 = 0 :=
  (by decide +kernel : ∀ t : Fin grid0.N, k0_cond1 (grid0.coords t) = 1#1 ↔ t.val % 2 = 0)
/-- The second branch (j = 1) runs exactly at the odd points. -/
theorem hcond2 : ∀ t : Fin cfg0.N, k0_cond2 (grid0.coords t) = 1#1 ↔ t.val % 2 = 1 :=
  (by decide +kernel : ∀ t : Fin grid0.N, k0_cond2 (grid0.coords t) = 1#1 ↔ t.val % 2 = 1)
/-- One of the two branches stores at every point: the result window is idle nowhere. -/
theorem hidle3 : ∀ t : Fin cfg0.N, cfg0.idle 3 (cfg0.grid.coords t) = false :=
  (by decide +kernel : ∀ t : Fin grid0.N, idle0 3 (grid0.coords t) = false)

/-! ## The inputs' buffers hold their blocks -/

theorem before_0 (c : Dev nD) (t : Fin cfg0.N) (d) : (dat0 m c).before 0 t d = iblk m c 0 t :=
  ((dat0 m c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 m c).before 1 t d = iblk m c 1 t :=
  ((dat0 m c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 m c).before 2 t d = iblk m c 2 t :=
  ((dat0 m c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body's triple, branch by branch -/

/-- The one store is of the whole result buffer, so it covers it. -/
theorem coverO (p0 : Vec F S64x512 .f32) (y : S64x512.Idx) :
    ∃ pc ∈ ([⟨rO, p0⟩] : List (View.Piece (Elt F) S64x512 .f32)), y ∈ pc.1.set :=
  View.cover_of_tiled [⟨rO, p0⟩] S64x512.size (by rfl) y

/-- The two branches compute the same function of the blocks they load. -/
theorem pay2_eq (x : Vec F S4096x64 .f32) (w : Vec F S512x4096 .f32) : k0_pay2 x w = k0_pay1 x w := rfl

set_option maxHeartbeats 1000000 in
/-- At a point where the first branch runs and the second does not: the inputs' buffers are left as found and the
    result's holds the product of the x block with window 1's block. -/
theorem sound_kernel_even (c : Dev nD) (E : Set ℕ) (i : grid0.Coords) (h1 : k0_cond1 i = 1#1) (h2 : ¬ k0_cond2 i = 1#1)
    (arg2 : Memref sig .tc .vmem S4096x64 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S64x512 .f32) (harg5 : arg5.IsWhole)
    (x : Vec F S4096x64 .f32) (w1 w2 : Vec F S512x4096 .f32) (K : PUnit → sProp 𝕄) :
    iprop(owns (c : Thread nD τ) arg2 fullShare x ∗ owns (c : Thread nD τ) arg3 fullShare w1 ∗ owns (c : Thread nD τ) arg4 fullShare w2
        ∗ (∃ d, owns (c : Thread nD τ) arg5 fullShare d)
        ∗ (iprop(owns (c : Thread nD τ) arg2 fullShare x ∗ owns (c : Thread nD τ) arg3 fullShare w1 ∗ owns (c : Thread nD τ) arg4 fullShare w2
            ∗ owns (c : Thread nD τ) arg5 fullShare (outO x w1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

set_option maxHeartbeats 1000000 in
/-- At a point where the second branch runs and the first does not: the same with window 2's block. -/
theorem sound_kernel_odd (c : Dev nD) (E : Set ℕ) (i : grid0.Coords) (h1 : ¬ k0_cond1 i = 1#1) (h2 : k0_cond2 i = 1#1)
    (arg2 : Memref sig .tc .vmem S4096x64 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S64x512 .f32) (harg5 : arg5.IsWhole)
    (x : Vec F S4096x64 .f32) (w1 w2 : Vec F S512x4096 .f32) (K : PUnit → sProp 𝕄) :
    iprop(owns (c : Thread nD τ) arg2 fullShare x ∗ owns (c : Thread nD τ) arg3 fullShare w1 ∗ owns (c : Thread nD τ) arg4 fullShare w2
        ∗ (∃ d, owns (c : Thread nD τ) arg5 fullShare d)
        ∗ (iprop(owns (c : Thread nD τ) arg2 fullShare x ∗ owns (c : Thread nD τ) arg3 fullShare w1 ∗ owns (c : Thread nD τ) arg4 fullShare w2
            ∗ owns (c : Thread nD τ) arg5 fullShare (outO x w2)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The body obligation, at a generic point -/

/-- What the body is called with at point `t`, the windows one by one, -/
def bodyPre (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d)))

/-- what it returns of the result window's buffer, by the cases the obligation writes (the window is idle nowhere, so it is
    the stored block), -/
def oPost (c : Dev nD) (t : Fin cfg0.N) : sProp 𝕄 :=
  match cfg0.idle 3 (cfg0.grid.coords t) with
  | true =>
    match (cfg0.win 3).flush t with
    | false => iprop(∃ d, owns (c : Thread nD τ) (st0_3 t) fullShare ((dat0 m c).before 3 t d))
    | true => owns (c : Thread nD τ) (st0_3 t) fullShare ((dat0 m c).after 3 t)
  | false => owns (c : Thread nD τ) (st0_3 t) fullShare ((dat0 m c).after 3 t)

/-- and all it returns. -/
def bodyPost (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t)
    ∗ oPost m c t)

set_option maxHeartbeats 800000 in
/-- The body at any point: the inputs' buffers hold their blocks; the point's parity says which branch runs; the
    invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost oPost bodyAt0
  rw [hidle3 t]
  simp only [before_0, before_1, before_2]
  rw [show (dat0 m c).Φ t.succ = (dat0 m c).Φ t.castSucc from rfl,
    show (dat0 m c).owesAt () t.succ = (dat0 m c).owesAt () t.castSucc from rfl,
    after_0, after_1, after_2, after_3]
  by_cases h0 : t.val % 2 = 0
  · have hw : wsel m c t = iblk m c 1 t := by unfold wsel; rw [if_pos h0]
    rw [hw]
    iintro ⟨HΦ, Ho, ⟨%d0, H0⟩, ⟨%d1, H1⟩, ⟨%d2, H2⟩, ⟨%d3, H3⟩⟩
    iapply (sound_kernel_even c Set.univ (grid0.coords t) ((hcond1 t).mpr h0) (fun h => by have := (hcond2 t).mp h; omega)
      _ _ _ _ _ _ _ _ (iblk m c 0 t) (iblk m c 1 t) (iblk m c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have hw : wsel m c t = iblk m c 2 t := by unfold wsel; rw [if_neg h0]
    rw [hw]
    iintro ⟨HΦ, Ho, ⟨%d0, H0⟩, ⟨%d1, H1⟩, ⟨%d2, H2⟩, ⟨%d3, H3⟩⟩
    iapply (sound_kernel_odd c Set.univ (grid0.coords t) (fun h => h0 ((hcond1 t).mp h)) ((hcond2 t).mpr (by omega))
      _ _ _ _ _ _ _ _ (iblk m c 0 t) (iblk m c 1 t) (iblk m c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dat0 (F := F) m c) (defs₀ (F := F)) Variants.none () Set.univ := fun t => by
  rw [bigSep_W0, bigSep_W0]
  exact sound_body m c t

end Cert.Kernel.Hand

end
-- ==== Proof.BitsRun.lean ====
/-
  The run of the program, generic in the float instance: the pallas_call as one region, the host transpose after it,
  launched from any memory.

  Between segments a core holds every unscoped buffer whole at a valuation.  At the region's entry the buffers behind
  the windows' arrays are dealt to the windows: x and the result array at the full share, and the ONE weight array
  split into its two half shares, one for each of the two windows that read it.  At the exit the two halves, both
  still at the launch contents (an input array is never written), are joined again, and the result array is the
  only buffer whose contents changed.  The transpose then reads it and writes the program's result.
-/
import proofs.«144925_g11922829214311_fold_wed_m_296_30_alg».proof.Proof.BitsBody
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays, one by one, at their shares -/

/-- The distinct buffers behind the four windows' arrays. -/
theorem arr_list : Finset.univ.image (Pipeline.arrRef spec0) = [main_arg0, main_arg1, main_call0_v0].toFinset := by decide

theorem set_w (w : Fin 4) : (cfg0.win w).arr.view.set = Finset.univ := (arr_whole0 w).set_eq_univ

theorem share_0 (c : Dev nD) : (dat0 m c).share 0 = fullShare := rfl
theorem share_1 (c : Dev nD) : (dat0 m c).share 1 = fullShare.left := rfl
theorem share_2 (c : Dev nD) : (dat0 m c).share 2 = fullShare.right := rfl
theorem share_3 (c : Dev nD) : (dat0 m c).share 3 = fullShare := rfl

/-- The pipeline's arrays at contents `F`: x whole, the weight array's left half at window 1's contents and its right
    half at window 2's, the result array whole. -/
theorem arrays_chain (c : Dev nD) (G : (w : Fin cfg0.W) → Buf (Elt F) ((cfg0.win w).arr.view.loc (c : Thread nD τ))) :
    ((dat0 m c).arrays G : sProp 𝕄)
      = iprop((((c : Thread nD τ).loc main_arg0) ↦{fullShare} G 0) ∗ (((c : Thread nD τ).loc main_arg1) ↦{fullShare.left} G 1)
          ∗ (((c : Thread nD τ).loc main_arg1) ↦{fullShare.right} G 2) ∗ (((c : Thread nD τ).loc main_call0_v0) ↦{fullShare} G 3)) := by
  unfold Dat.arrays
  rw [bigSep_W0, set_w 0, set_w 1, set_w 3, share_0, share_1, share_2, share_3]

/-- The buffers behind the arrays, each whole at the full share at a valuation. -/
theorem arrBufs_chain (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1)
          ∗ (((c : Thread nD τ).loc main_call0_v0) ↦{fullShare} V' main_call0_v0)) := by
  unfold Pipeline.arrBufs
  rw [bigSep_eq_bigSepL_of_eq [main_arg0, main_arg1, main_call0_v0] arr_list (by decide)]
  rfl

/-- ENTRY: the buffers behind the arrays at the launch contents are the pipeline's arrays at the proof data's entry
    contents, the weight array split in its two halves. -/
theorem arrays_entry (c : Dev nD) :
    (Pipeline.arrBufs (Ix := Unit) (Name := ℕ) (U := UR sig nD τ) (Lvl := ℕ) spec0 c (V m c) : sProp 𝕄)
      ⊢ (dat0 m c).arrays ((dat0 m c).arrAt · 0) := by
  rw [arrBufs_chain, arrays_chain]
  iintro ⟨H0, H1, H3⟩
  ihave H12 := (pointsTo_share (PosShare.mem_left_op_right fullShare)).1 $$ H1
  icases H12 with ⟨H1, H2⟩
  isplitl [H0]; · iexact H0
  isplitl [H1]; · iexact H1
  isplitl [H2]; · iexact H2
  iexact H3

/-- EXIT: the pipeline's arrays at their final contents are the buffers behind them at any valuation that has the
    inputs at the launch contents and the result array at what the write-backs leave. -/
theorem arrays_exit (c : Dev nD) (V' : (b : Ref sig .tc) → Buf (Elt F) ((c : Thread nD τ).loc b))
    (h0 : V' main_arg0 = V m c main_arg0) (h1 : V' main_arg1 = V m c main_arg1)
    (h3 : V' main_call0_v0 = (dat0 m c).arrAt 3 cfg0.N) :
    ((dat0 m c).arrays ((dat0 m c).arrAt · cfg0.N) : sProp 𝕄)
      ⊢ Pipeline.arrBufs (Ix := Unit) (Name := ℕ) (U := UR sig nD τ) (Lvl := ℕ) spec0 c V' := by
  rw [arrBufs_chain, arrays_chain, (dat0 m c).arrAt_in 0 rfl, (dat0 m c).arrAt_in 1 rfl, (dat0 m c).arrAt_in 2 rfl,
    A_eq, A_eq, A_eq, h0, h1, h3]
  iintro ⟨H0, H1, H2, H3⟩
  isplitl [H0]; · iexact H0
  isplitl [H1 H2]
  · iapply (pointsTo_share (PosShare.mem_left_op_right fullShare)).2
    isplitl [H1]; · iexact H1
    iexact H2
  iexact H3

/-! ## The buffer contents at each segment boundary -/

/-- Core `c`'s buffers at launch: what the region is entered from. -/
abbrev W0 : Dev nD → Valuation τ sig (Elt F) := fun c b => (s₀ m ρ).mem ((c : Dev nD), b)

/-- At the region's exit: the result array at what the write-backs leave, every other buffer as launched. -/
def W1 (c : Dev nD) : Valuation τ sig (Elt F) :=
  Function.update (W0 m ρ c) (Proc.devRef .tc main_call0_v0) ((dat0 m c).arrAt 3 cfg0.N)

theorem W1_out (c : Dev nD) : W1 m ρ c (Proc.devRef .tc main_call0_v0) = (dat0 m c).arrAt 3 cfg0.N := by
  unfold W1; exact Function.update_self _ _ _

theorem W1_of_ne (c : Dev nD) (b : Ref sig .tc) (hb : b ≠ main_call0_v0) :
    W1 m ρ c (Proc.devRef .tc b) = W0 m ρ c (Proc.devRef .tc b) := by
  unfold W1; exact Function.update_of_ne (StableHlo.devRef_ne_of_ne hb) _ _

/-- The same read at the TensorCore's references. -/
abbrev V1 : (c : Dev nD) → (b : Ref sig .tc) → Buf (Elt F) ((c : Thread nD τ).loc b) := fun c b => W1 m ρ c b

/-- After the transpose: the last boundary. -/
abbrev W2 : Dev nD → Valuation τ sig (Elt F) := fun c => StableHlo.after hostOps1 (W1 m ρ c)

/-- The program's result buffer ends at the transpose of what the pallas_call left. -/
theorem W2_main_v0 (c : Dev nD) : W2 m ρ c (Proc.devRef .tc main_v0) = kres m c := by
  show StableHlo.after hostOps1 (W1 m ρ c) (Proc.devRef .tc main_v0) = _
  after_results
  unfold kres
  rw [← W1_out m ρ c]
  rfl

/-- The arguments end as launched: the transpose writes neither, and the region only reads them. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := by
          show StableHlo.after hostOps1 (W1 m ρ c) (Proc.devRef .tc main_arg0) = _
          after_results
    _ = W0 m ρ c (Proc.devRef .tc main_arg0) := W1_of_ne m ρ c main_arg0 (by decide)
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := by
          show StableHlo.after hostOps1 (W1 m ρ c) (Proc.devRef .tc main_arg1) = _
          after_results
    _ = W0 m ρ c (Proc.devRef .tc main_arg1) := W1_of_ne m ρ c main_arg1 (by decide)
    _ = m ((c : Thread nD τ).loc main_arg1) := rfl

/-! ## The proof data family and the thread state -/

abbrev adm : (p : Fin 1) → (pcfgs (F := F) p).Adm := fun p => (cfgs p).toPCfg_adm
/-- The one pipeline's proof data. -/
def pdats : (p : Fin 1) → (c : Dev nD) → Dat τ (Elt F) Unit ℕ (UR sig nD τ) ℕ (Pipeline.pin (pcfgs (F := F)) adm p) c
  | ⟨0, _⟩ => fun c => dat0 m c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)

/-- The transpose allocates no buffer. -/
theorem hostOps1_fresh : (hostOps1 : List (HloOp τ sig (Elt F))).Forall fun op => op.fresh = ∅ := by
  simp only [List.Forall]; repeat' constructor

/-- The host stretch as a segment over every unscoped buffer, from the region's exit contents. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W2 m ρ c) ∗ ∃ r, prngReg c r)

/-! ## The region as a segment -/

/-- The unscoped buffers at the launch contents, as the held set. -/
theorem held_W0 (c : Dev nD) :
    (unscopedBufs (Ix := Unit) (Name := ℕ) (U := UR sig nD τ) (Lvl := ℕ) c (V m c) : sProp 𝕄)
      = StableHlo.held (c : Thread nD τ) (Pipeline.ucRefs τ sig) (W0 m ρ c) :=
  Pipeline.unscopedBufs_held c (W0 m ρ c)
/-- and at the region's exit contents. -/
theorem held_W1 (c : Dev nD) :
    (unscopedBufs (Ix := Unit) (Name := ℕ) (U := UR sig nD τ) (Lvl := ℕ) c (V1 m ρ c) : sProp 𝕄)
      = StableHlo.held (c : Thread nD τ) (Pipeline.ucRefs τ sig) (W1 m ρ c) :=
  Pipeline.unscopedBufs_held c (W1 m ρ c)

/-- The one unscoped buffer that is no window's array, the program's result buffer, holds at the exit what it held at
    the entry. -/
theorem rest_eq (c : Dev nD) :
    (Pipeline.unscopedRest (Ix := Unit) (Name := ℕ) (U := UR sig nD τ) (Lvl := ℕ) spec0 c (V1 m ρ c) : sProp 𝕄)
      = Pipeline.unscopedRest spec0 c (V m c) := by
  rw [unscopedRest0_eq, unscopedRest0_eq, show V1 m ρ c main_v0 = V m c main_v0 from W1_of_ne m ρ c main_v0 (by decide)]

/-- ENTRY of the region, the buffers' part. -/
theorem entry_split (c : Dev nD) :
    (StableHlo.held (c : Thread nD τ) (Pipeline.ucRefs τ sig) (W0 m ρ c) : sProp 𝕄)
      ⊢ iprop((dat0 m c).arrays ((dat0 m c).arrAt · 0) ∗ Pipeline.unscopedRest spec0 c (V m c)) := by
  rw [← held_W0, Pipeline.unscopedBufs_split₀ cfgs 0 winFacts₀0.arr_unscoped c (V m c)]
  exact sep_mono (arrays_entry m c) .rfl

/-- EXIT of the region, the buffers' part. -/
theorem exit_join (c : Dev nD) :
    iprop((dat0 m c).arrays ((dat0 m c).arrAt · cfg0.N) ∗ Pipeline.unscopedRest spec0 c (V m c))
      ⊢ (StableHlo.held (c : Thread nD τ) (Pipeline.ucRefs τ sig) (W1 m ρ c) : sProp 𝕄) := by
  rw [← held_W1, Pipeline.unscopedBufs_split₀ cfgs 0 winFacts₀0.arr_unscoped c (V1 m ρ c), rest_eq]
  exact sep_mono (arrays_exit m c (V1 m ρ c) (W1_of_ne m ρ c main_arg0 (by decide)) (W1_of_ne m ρ c main_arg1 (by decide)) (W1_out m ρ c)) .rfl

set_option backward.isDefEq.respectTransparency.types false in
/-- THE REGION over the thread state: entered from every unscoped buffer at the launch contents, left with the result
    array at what the write-backs leave; the generator register into the class invariant and out; nothing owed; no
    semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's two segments in order: the region, then the transpose. -/
abbrev segs : List (Pipeline.Seg (pcfgs (F := F)) adm (pdats m) () defs₀ 𝒱₀ L lv) :=
  [ .region (reg0 m ρ), .host (hseg1 m ρ) ]

/-- The transpose's exit state is the last thread state beside the core owing nothing (the same resources, regrouped). -/
theorem last_link (c : Dev nD) :
    iprop(StableHlo.held (c : Thread nD τ) (Pipeline.ucRefs τ sig) (W2 m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state has the program's result buffer at `kres` and the argument arrays as
    launched. -/
theorem run_main : θ_run defs (onTc (τ := τ) (main (F := F))) ⟨m, fun _ => 0, ρ⟩ (fun r => ∀ c : Dev nD,
      r.2.mem ((c.tc : Thread nD τ).loc main_v0) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v0 (by decide))).trans (W2_main_v0 m ρ c),
       (h c _ (mem_uc main_arg0 (by decide))).trans (W2_main_arg0 m ρ c),
       (h c _ (mem_uc main_arg1 (by decide))).trans (W2_main_arg1 m ρ c)⟩)

end Cert.Kernel.Hand

end
-- ==== Proof.IdealData.lean ====
/-
  The proof data of the one pallas_call, generic in the float instance.

  The call runs on a 4 × 2 grid, point t = 2·i + j.  Window 0 is the whole 4096 × 64 input x at every point;
  windows 1 and 2 are both views of the ONE 4096 × 4096 weight array W — window 1 its row block i, window 2 its
  row block 4 + i — and window 3 is column block i + 4·j of the 64 × 4096 result.  At an even point (j = 0) the body
  stores into window 3 the product of x (contracted on its rows) with window 1's block (contracted on its columns);
  at an odd point (j = 1) the same product with window 2's block.  Every point stores the whole 64 × 512 block, and
  every point writes it back, so no point is idle for the result window.

  Because windows 1 and 2 read the same array, each holds one half of that array's full share.
-/
import proofs.«144925_g11922829214311_fold_wed_m_296_30_alg».proof.Proof.Gen.KernelIdeal.Launch
import proofs.«144925_g11922829214311_fold_wed_m_296_30_alg».proof.Proof.Gen.KernelIdeal.Skeleton
import proofs.«144925_g11922829214311_fold_wed_m_296_30_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers when the region is entered: as launched (no host operation precedes the call). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's three whole-buffer accesses. -/
abbrev rX : Rect S4096x64 := Rect.unit (s := S4096x64) ![0, 0] S4096x64.size inb_S4096x64_S4096x64_0_0
abbrev rW : Rect S512x4096 := Rect.unit (s := S512x4096) ![0, 0] S512x4096.size inb_S512x4096_S512x4096_0_0
abbrev rO : Rect S64x512 := Rect.unit (s := S64x512) ![0, 0] S64x512.size inb_S64x512_S64x512_0_0

/-- What the body leaves in the result window's buffer, from the x block and the weight block it multiplied: its one
    store, of the whole buffer. -/
def outO (x : Vec F S4096x64 .f32) (w : Vec F S512x4096 .f32) : Vec F S64x512 .f32 :=
  View.canon [⟨rO, k0_pay1 (View.ld x rX) (View.ld w rW)⟩]

/-- The weight block a point multiplies by: window 1's at an even point, window 2's at an odd one. -/
def wsel (c : Dev nD) (t : Fin cfg0.N) : Vec F S512x4096 .f32 :=
  if t.val % 2 = 0 then iblk m c 1 t else iblk m c 2 t

/-- The proof data: the arrays as launched; after the body each input's buffer still at its block and the result's at
    `outO` of the x block and the selected weight block; the invariant the scoped rest and the generator register;
    nothing owed; the two windows on the weight array at half its share each. -/
def dat0 (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO (iblk m c 0 t) (wsel m c t)
  Φ _ := Pipeline.ΦA spec0 c
  q w := match w with
    | ⟨0, _⟩ => fullShare
    | ⟨1, _⟩ => fullShare.left
    | ⟨2, _⟩ => fullShare.right
    | ⟨3, _⟩ => fullShare
  owed _ := 0

theorem A_eq (c : Dev nD) (w : Fin cfg0.W) : (dat0 m c).A w = V m c (Pipeline.arrRef spec0 w) := by
  dsimp only [dat0]

theorem after_0 (c : Dev nD) (t : Fin cfg0.N) : (dat0 m c).after 0 t = iblk m c 0 t := by dsimp only [dat0]
theorem after_1 (c : Dev nD) (t : Fin cfg0.N) : (dat0 m c).after 1 t = iblk m c 1 t := by dsimp only [dat0]
theorem after_2 (c : Dev nD) (t : Fin cfg0.N) : (dat0 m c).after 2 t = iblk m c 2 t := by dsimp only [dat0]
theorem after_3 (c : Dev nD) (t : Fin cfg0.N) : (dat0 m c).after 3 t = outO (iblk m c 0 t) (wsel m c t) := by dsimp only [dat0]

/-- What the program returns on core `c`: the host's transpose of the 64 × 4096 array the pallas_call leaves (its
    write-backs folded over the grid). -/
def kres (c : Dev nD) : Buf (Elt F) ((c : Thread nD τ).loc main_v0) :=
  transpose S4096x64 [1, 0] ((dat0 m c).arrAt 3 cfg0.N) transposes_S64x4096_S4096x64_1_0

end Cert.KernelIdeal.Hand

end
-- ==== Proof.IdealBody.lean ====
/-
  The body obligation of the one pallas_call, generic in the float instance.

  The body has two branches on the second grid coordinate j.  At an even point (j = 0) the first branch runs and the
  second does not; at an odd point (j = 1) it is the other way round.  Either way exactly one whole-buffer store into the
  result window happens: the product of the x block with the weight block of window 1 (even) or window 2 (odd).  The
  three input buffers are read and left as found.  An input window's buffer holds its block of the launch array at every
  point, fetched there or not, because its block index does not move between fetches.
-/
import proofs.«144925_g11922829214311_fold_wed_m_296_30_alg».proof.Proof.IdealData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Which branch runs where -/

/-- The first branch (j = 0) runs exactly at the even points. -/
theorem hcond1 : ∀ t : Fin cfg0.N, k0_cond1 (grid0.coords t) = 1#1 ↔ t.val % 2 = 0 :=
  (by decide +kernel : ∀ t : Fin grid0.N, k0_cond1 (grid0.coords t) = 1#1 ↔ t.val % 2 = 0)
/-- The second branch (j = 1) runs exactly at the odd points. -/
theorem hcond2 : ∀ t : Fin cfg0.N, k0_cond2 (grid0.coords t) = 1#1 ↔ t.val % 2 = 1 :=
  (by decide +kernel : ∀ t : Fin grid0.N, k0_cond2 (grid0.coords t) = 1#1 ↔ t.val % 2 = 1)
/-- One of the two branches stores at every point: the result window is idle nowhere. -/
theorem hidle3 : ∀ t : Fin cfg0.N, cfg0.idle 3 (cfg0.grid.coords t) = false :=
  (by decide +kernel : ∀ t : Fin grid0.N, idle0 3 (grid0.coords t) = false)

/-! ## The inputs' buffers hold their blocks -/

theorem before_0 (c : Dev nD) (t : Fin cfg0.N) (d) : (dat0 m c).before 0 t d = iblk m c 0 t :=
  ((dat0 m c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat0 m c).before 1 t d = iblk m c 1 t :=
  ((dat0 m c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat0 m c).before 2 t d = iblk m c 2 t :=
  ((dat0 m c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body's triple, branch by branch -/

/-- The one store is of the whole result buffer, so it covers it. -/
theorem coverO (p0 : Vec F S64x512 .f32) (y : S64x512.Idx) :
    ∃ pc ∈ ([⟨rO, p0⟩] : List (View.Piece (Elt F) S64x512 .f32)), y ∈ pc.1.set :=
  View.cover_of_tiled [⟨rO, p0⟩] S64x512.size (by rfl) y

/-- The two branches compute the same function of the blocks they load. -/
theorem pay2_eq (x : Vec F S4096x64 .f32) (w : Vec F S512x4096 .f32) : k0_pay2 x w = k0_pay1 x w := rfl

set_option maxHeartbeats 1000000 in
/-- At a point where the first branch runs and the second does not: the inputs' buffers are left as found and the
    result's holds the product of the x block with window 1's block. -/
theorem sound_kernel_even (c : Dev nD) (E : Set ℕ) (i : grid0.Coords) (h1 : k0_cond1 i = 1#1) (h2 : ¬ k0_cond2 i = 1#1)
    (arg2 : Memref sig .tc .vmem S4096x64 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S64x512 .f32) (harg5 : arg5.IsWhole)
    (x : Vec F S4096x64 .f32) (w1 w2 : Vec F S512x4096 .f32) (K : PUnit → sProp 𝕄) :
    iprop(owns (c : Thread nD τ) arg2 fullShare x ∗ owns (c : Thread nD τ) arg3 fullShare w1 ∗ owns (c : Thread nD τ) arg4 fullShare w2
        ∗ (∃ d, owns (c : Thread nD τ) arg5 fullShare d)
        ∗ (iprop(owns (c : Thread nD τ) arg2 fullShare x ∗ owns (c : Thread nD τ) arg3 fullShare w1 ∗ owns (c : Thread nD τ) arg4 fullShare w2
            ∗ owns (c : Thread nD τ) arg5 fullShare (outO x w1)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

set_option maxHeartbeats 1000000 in
/-- At a point where the second branch runs and the first does not: the same with window 2's block. -/
theorem sound_kernel_odd (c : Dev nD) (E : Set ℕ) (i : grid0.Coords) (h1 : ¬ k0_cond1 i = 1#1) (h2 : k0_cond2 i = 1#1)
    (arg2 : Memref sig .tc .vmem S4096x64 .f32) (harg2 : arg2.IsWhole) (arg3 : Memref sig .tc .vmem S512x4096 .f32) (harg3 : arg3.IsWhole)
    (arg4 : Memref sig .tc .vmem S512x4096 .f32) (harg4 : arg4.IsWhole) (arg5 : Memref sig .tc .vmem S64x512 .f32) (harg5 : arg5.IsWhole)
    (x : Vec F S4096x64 .f32) (w1 w2 : Vec F S512x4096 .f32) (K : PUnit → sProp 𝕄) :
    iprop(owns (c : Thread nD τ) arg2 fullShare x ∗ owns (c : Thread nD τ) arg3 fullShare w1 ∗ owns (c : Thread nD τ) arg4 fullShare w2
        ∗ (∃ d, owns (c : Thread nD τ) arg5 fullShare d)
        ∗ (iprop(owns (c : Thread nD τ) arg2 fullShare x ∗ owns (c : Thread nD τ) arg3 fullShare w1 ∗ owns (c : Thread nD τ) arg4 fullShare w2
            ∗ owns (c : Thread nD τ) arg5 fullShare (outO x w2)) -∗ K ⟨⟩))
      ⊢ wp frame (wpE (defs₀ (F := F)) Variants.none c none) E (cc0__matmul_kernel i arg2 harg2 arg3 harg3 arg4 harg4 arg5 harg5) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact h1 | exact h2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The body obligation, at a generic point -/

/-- What the body is called with at point `t`, the windows one by one, -/
def bodyPre (c : Dev nD) (t : Fin cfg0.N) : sProp 𝕄 :=
  iprop((dat0 m c).Φ t.castSucc ∗ (dat0 m c).owesAt () t.castSucc
    ∗ (∃ d, owns (c : Thread nD τ) (st0_0 t) fullShare ((dat0 m c).before 0 t d))
    ∗ (∃ d, owns (c : Thread nD τ) (st0_1 t) fullShare ((dat0 m c).before 1 t d))
    ∗ (∃ d, owns (c : Thread nD τ) (st0_2 t) fullShare ((dat0 m c).before 2 t d))
    ∗ (∃ d, owns (c : Thread nD τ) (st0_3 t) fullShare ((dat0 m c).before 3 t d)))

/-- what it returns of the result window's buffer, by the cases the obligation writes (the window is idle nowhere, so it is
    the stored block), -/
def oPost (c : Dev nD) (t : Fin cfg0.N) : sProp 𝕄 :=
  match cfg0.idle 3 (cfg0.grid.coords t) with
  | true =>
    match (cfg0.win 3).flush t with
    | false => iprop(∃ d, owns (c : Thread nD τ) (st0_3 t) fullShare ((dat0 m c).before 3 t d))
    | true => owns (c : Thread nD τ) (st0_3 t) fullShare ((dat0 m c).after 3 t)
  | false => owns (c : Thread nD τ) (st0_3 t) fullShare ((dat0 m c).after 3 t)

/-- and all it returns. -/
def bodyPost (c : Dev nD) (t : Fin cfg0.N) : sProp 𝕄 :=
  iprop((dat0 m c).Φ t.succ ∗ (dat0 m c).owesAt () t.succ
    ∗ owns (c : Thread nD τ) (st0_0 t) fullShare ((dat0 m c).after 0 t)
    ∗ owns (c : Thread nD τ) (st0_1 t) fullShare ((dat0 m c).after 1 t)
    ∗ owns (c : Thread nD τ) (st0_2 t) fullShare ((dat0 m c).after 2 t)
    ∗ oPost m c t)

set_option maxHeartbeats 800000 in
/-- The body at any point: the inputs' buffers hold their blocks; the point's parity says which branch runs; the
    invariant and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost oPost bodyAt0
  rw [hidle3 t]
  simp only [before_0, before_1, before_2]
  rw [show (dat0 m c).Φ t.succ = (dat0 m c).Φ t.castSucc from rfl,
    show (dat0 m c).owesAt () t.succ = (dat0 m c).owesAt () t.castSucc from rfl,
    after_0, after_1, after_2, after_3]
  by_cases h0 : t.val % 2 = 0
  · have hw : wsel m c t = iblk m c 1 t := by unfold wsel; rw [if_pos h0]
    rw [hw]
    iintro ⟨HΦ, Ho, ⟨%d0, H0⟩, ⟨%d1, H1⟩, ⟨%d2, H2⟩, ⟨%d3, H3⟩⟩
    iapply (sound_kernel_even c Set.univ (grid0.coords t) ((hcond1 t).mpr h0) (fun h => by have := (hcond2 t).mp h; omega)
      _ _ _ _ _ _ _ _ (iblk m c 0 t) (iblk m c 1 t) (iblk m c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · have hw : wsel m c t = iblk m c 2 t := by unfold wsel; rw [if_neg h0]
    rw [hw]
    iintro ⟨HΦ, Ho, ⟨%d0, H0⟩, ⟨%d1, H1⟩, ⟨%d2, H2⟩, ⟨%d3, H3⟩⟩
    iapply (sound_kernel_odd c Set.univ (grid0.coords t) (fun h => h0 ((hcond1 t).mp h)) ((hcond2 t).mpr (by omega))
      _ _ _ _ _ _ _ _ (iblk m c 0 t) (iblk m c 1 t) (iblk m c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dat0 (F := F) m c) (defs₀ (F := F)) Variants.none () Set.univ := fun t => by
  rw [bigSep_W0, bigSep_W0]
  exact sound_body m c t

end Cert.KernelIdeal.Hand

end
-- ==== Proof.IdealRun.lean ====
/-
  The run of the program, generic in the float instance: the pallas_call as one region, the host transpose after it,
  launched from any memory.

  Between segments a core holds every unscoped buffer whole at a valuation.  At the region's entry the buffers behind
  the windows' arrays are dealt to the windows: x and the result array at the full share, and the ONE weight array
  split into its two half shares, one for each of the two windows that read it.  At the exit the two halves, both
  still at the launch contents (an input array is never written), are joined again, and the result array is the
  only buffer whose contents changed.  The transpose then reads it and writes the program's result.
-/
import proofs.«144925_g11922829214311_fold_wed_m_296_30_alg».proof.Proof.IdealBody
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays, one by one, at their shares -/

/-- The distinct buffers behind the four windows' arrays. -/
theorem arr_list : Finset.univ.image (Pipeline.arrRef spec0) = [main_arg0, main_arg1, main_call0_v0].toFinset := by decide

theorem set_w (w : Fin 4) : (cfg0.win w).arr.view.set = Finset.univ := (arr_whole0 w).set_eq_univ

theorem share_0 (c : Dev nD) : (dat0 m c).share 0 = fullShare := rfl
theorem share_1 (c : Dev nD) : (dat0 m c).share 1 = fullShare.left := rfl
theorem share_2 (c : Dev nD) : (dat0 m c).share 2 = fullShare.right := rfl
theorem share_3 (c : Dev nD) : (dat0 m c).share 3 = fullShare := rfl

/-- The pipeline's arrays at contents `F`: x whole, the weight array's left half at window 1's contents and its right
    half at window 2's, the result array whole. -/
theorem arrays_chain (c : Dev nD) (G : (w : Fin cfg0.W) → Buf (Elt F) ((cfg0.win w).arr.view.loc (c : Thread nD τ))) :
    ((dat0 m c).arrays G : sProp 𝕄)
      = iprop((((c : Thread nD τ).loc main_arg0) ↦{fullShare} G 0) ∗ (((c : Thread nD τ).loc main_arg1) ↦{fullShare.left} G 1)
          ∗ (((c : Thread nD τ).loc main_arg1) ↦{fullShare.right} G 2) ∗ (((c : Thread nD τ).loc main_call0_v0) ↦{fullShare} G 3)) := by
  unfold Dat.arrays
  rw [bigSep_W0, set_w 0, set_w 1, set_w 3, share_0, share_1, share_2, share_3]

/-- The buffers behind the arrays, each whole at the full share at a valuation. -/
theorem arrBufs_chain (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_arg0) ↦{fullShare} V' main_arg0) ∗ (((c : Thread nD τ).loc main_arg1) ↦{fullShare} V' main_arg1)
          ∗ (((c : Thread nD τ).loc main_call0_v0) ↦{fullShare} V' main_call0_v0)) := by
  unfold Pipeline.arrBufs
  rw [bigSep_eq_bigSepL_of_eq [main_arg0, main_arg1, main_call0_v0] arr_list (by decide)]
  rfl

/-- ENTRY: the buffers behind the arrays at the launch contents are the pipeline's arrays at the proof data's entry
    contents, the weight array split in its two halves. -/
theorem arrays_entry (c : Dev nD) :
    (Pipeline.arrBufs (Ix := Unit) (Name := ℕ) (U := UR sig nD τ) (Lvl := ℕ) spec0 c (V m c) : sProp 𝕄)
      ⊢ (dat0 m c).arrays ((dat0 m c).arrAt · 0) := by
  rw [arrBufs_chain, arrays_chain]
  iintro ⟨H0, H1, H3⟩
  ihave H12 := (pointsTo_share (PosShare.mem_left_op_right fullShare)).1 $$ H1
  icases H12 with ⟨H1, H2⟩
  isplitl [H0]; · iexact H0
  isplitl [H1]; · iexact H1
  isplitl [H2]; · iexact H2
  iexact H3

/-- EXIT: the pipeline's arrays at their final contents are the buffers behind them at any valuation that has the
    inputs at the launch contents and the result array at what the write-backs leave. -/
theorem arrays_exit (c : Dev nD) (V' : (b : Ref sig .tc) → Buf (Elt F) ((c : Thread nD τ).loc b))
    (h0 : V' main_arg0 = V m c main_arg0) (h1 : V' main_arg1 = V m c main_arg1)
    (h3 : V' main_call0_v0 = (dat0 m c).arrAt 3 cfg0.N) :
    ((dat0 m c).arrays ((dat0 m c).arrAt · cfg0.N) : sProp 𝕄)
      ⊢ Pipeline.arrBufs (Ix := Unit) (Name := ℕ) (U := UR sig nD τ) (Lvl := ℕ) spec0 c V' := by
  rw [arrBufs_chain, arrays_chain, (dat0 m c).arrAt_in 0 rfl, (dat0 m c).arrAt_in 1 rfl, (dat0 m c).arrAt_in 2 rfl,
    A_eq, A_eq, A_eq, h0, h1, h3]
  iintro ⟨H0, H1, H2, H3⟩
  isplitl [H0]; · iexact H0
  isplitl [H1 H2]
  · iapply (pointsTo_share (PosShare.mem_left_op_right fullShare)).2
    isplitl [H1]; · iexact H1
    iexact H2
  iexact H3

/-! ## The buffer contents at each segment boundary -/

/-- Core `c`'s buffers at launch: what the region is entered from. -/
abbrev W0 : Dev nD → Valuation τ sig (Elt F) := fun c b => (s₀ m ρ).mem ((c : Dev nD), b)

/-- At the region's exit: the result array at what the write-backs leave, every other buffer as launched. -/
def W1 (c : Dev nD) : Valuation τ sig (Elt F) :=
  Function.update (W0 m ρ c) (Proc.devRef .tc main_call0_v0) ((dat0 m c).arrAt 3 cfg0.N)

theorem W1_out (c : Dev nD) : W1 m ρ c (Proc.devRef .tc main_call0_v0) = (dat0 m c).arrAt 3 cfg0.N := by
  unfold W1; exact Function.update_self _ _ _

theorem W1_of_ne (c : Dev nD) (b : Ref sig .tc) (hb : b ≠ main_call0_v0) :
    W1 m ρ c (Proc.devRef .tc b) = W0 m ρ c (Proc.devRef .tc b) := by
  unfold W1; exact Function.update_of_ne (StableHlo.devRef_ne_of_ne hb) _ _

/-- The same read at the TensorCore's references. -/
abbrev V1 : (c : Dev nD) → (b : Ref sig .tc) → Buf (Elt F) ((c : Thread nD τ).loc b) := fun c b => W1 m ρ c b

/-- After the transpose: the last boundary. -/
abbrev W2 : Dev nD → Valuation τ sig (Elt F) := fun c => StableHlo.after hostOps1 (W1 m ρ c)

/-- The program's result buffer ends at the transpose of what the pallas_call left. -/
theorem W2_main_v0 (c : Dev nD) : W2 m ρ c (Proc.devRef .tc main_v0) = kres m c := by
  show StableHlo.after hostOps1 (W1 m ρ c) (Proc.devRef .tc main_v0) = _
  after_results
  unfold kres
  rw [← W1_out m ρ c]
  rfl

/-- The arguments end as launched: the transpose writes neither, and the region only reads them. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := by
          show StableHlo.after hostOps1 (W1 m ρ c) (Proc.devRef .tc main_arg0) = _
          after_results
    _ = W0 m ρ c (Proc.devRef .tc main_arg0) := W1_of_ne m ρ c main_arg0 (by decide)
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := by
          show StableHlo.after hostOps1 (W1 m ρ c) (Proc.devRef .tc main_arg1) = _
          after_results
    _ = W0 m ρ c (Proc.devRef .tc main_arg1) := W1_of_ne m ρ c main_arg1 (by decide)
    _ = m ((c : Thread nD τ).loc main_arg1) := rfl

/-! ## The proof data family and the thread state -/

abbrev adm : (p : Fin 1) → (pcfgs (F := F) p).Adm := fun p => (cfgs p).toPCfg_adm
/-- The one pipeline's proof data. -/
def pdats : (p : Fin 1) → (c : Dev nD) → Dat τ (Elt F) Unit ℕ (UR sig nD τ) ℕ (Pipeline.pin (pcfgs (F := F)) adm p) c
  | ⟨0, _⟩ => fun c => dat0 m c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)

/-- The transpose allocates no buffer. -/
theorem hostOps1_fresh : (hostOps1 : List (HloOp τ sig (Elt F))).Forall fun op => op.fresh = ∅ := by
  simp only [List.Forall]; repeat' constructor

/-- The host stretch as a segment over every unscoped buffer, from the region's exit contents. -/
abbrev hseg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W2 m ρ c) ∗ ∃ r, prngReg c r)

/-! ## The region as a segment -/

/-- The unscoped buffers at the launch contents, as the held set. -/
theorem held_W0 (c : Dev nD) :
    (unscopedBufs (Ix := Unit) (Name := ℕ) (U := UR sig nD τ) (Lvl := ℕ) c (V m c) : sProp 𝕄)
      = StableHlo.held (c : Thread nD τ) (Pipeline.ucRefs τ sig) (W0 m ρ c) :=
  Pipeline.unscopedBufs_held c (W0 m ρ c)
/-- and at the region's exit contents. -/
theorem held_W1 (c : Dev nD) :
    (unscopedBufs (Ix := Unit) (Name := ℕ) (U := UR sig nD τ) (Lvl := ℕ) c (V1 m ρ c) : sProp 𝕄)
      = StableHlo.held (c : Thread nD τ) (Pipeline.ucRefs τ sig) (W1 m ρ c) :=
  Pipeline.unscopedBufs_held c (W1 m ρ c)

/-- The one unscoped buffer that is no window's array, the program's result buffer, holds at the exit what it held at
    the entry. -/
theorem rest_eq (c : Dev nD) :
    (Pipeline.unscopedRest (Ix := Unit) (Name := ℕ) (U := UR sig nD τ) (Lvl := ℕ) spec0 c (V1 m ρ c) : sProp 𝕄)
      = Pipeline.unscopedRest spec0 c (V m c) := by
  rw [unscopedRest0_eq, unscopedRest0_eq, show V1 m ρ c main_v0 = V m c main_v0 from W1_of_ne m ρ c main_v0 (by decide)]

/-- ENTRY of the region, the buffers' part. -/
theorem entry_split (c : Dev nD) :
    (StableHlo.held (c : Thread nD τ) (Pipeline.ucRefs τ sig) (W0 m ρ c) : sProp 𝕄)
      ⊢ iprop((dat0 m c).arrays ((dat0 m c).arrAt · 0) ∗ Pipeline.unscopedRest spec0 c (V m c)) := by
  rw [← held_W0, Pipeline.unscopedBufs_split₀ cfgs 0 winFacts₀0.arr_unscoped c (V m c)]
  exact sep_mono (arrays_entry m c) .rfl

/-- EXIT of the region, the buffers' part. -/
theorem exit_join (c : Dev nD) :
    iprop((dat0 m c).arrays ((dat0 m c).arrAt · cfg0.N) ∗ Pipeline.unscopedRest spec0 c (V m c))
      ⊢ (StableHlo.held (c : Thread nD τ) (Pipeline.ucRefs τ sig) (W1 m ρ c) : sProp 𝕄) := by
  rw [← held_W1, Pipeline.unscopedBufs_split₀ cfgs 0 winFacts₀0.arr_unscoped c (V1 m ρ c), rest_eq]
  exact sep_mono (arrays_exit m c (V1 m ρ c) (W1_of_ne m ρ c main_arg0 (by decide)) (W1_of_ne m ρ c main_arg1 (by decide)) (W1_out m ρ c)) .rfl

set_option backward.isDefEq.respectTransparency.types false in
/-- THE REGION over the thread state: entered from every unscoped buffer at the launch contents, left with the result
    array at what the write-backs leave; the generator register into the class invariant and out; nothing owed; no
    semaphore of the kernel's own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's two segments in order: the region, then the transpose. -/
abbrev segs : List (Pipeline.Seg (pcfgs (F := F)) adm (pdats m) () defs₀ 𝒱₀ L lv) :=
  [ .region (reg0 m ρ), .host (hseg1 m ρ) ]

/-- The transpose's exit state is the last thread state beside the core owing nothing (the same resources, regrouped). -/
theorem last_link (c : Dev nD) :
    iprop(StableHlo.held (c : Thread nD τ) (Pipeline.ucRefs τ sig) (W2 m ρ c) ∗ R c)
      ⊢ (iprop(Tₙ m ρ c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state has the program's result buffer at `kres` and the argument arrays as
    launched. -/
theorem run_main : θ_run defs (onTc (τ := τ) (main (F := F))) ⟨m, fun _ => 0, ρ⟩ (fun r => ∀ c : Dev nD,
      r.2.mem ((c.tc : Thread nD τ).loc main_v0) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun c => last_link m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨(h c _ (mem_uc main_v0 (by decide))).trans (W2_main_v0 m ρ c),
       (h c _ (mem_uc main_arg0 (by decide))).trans (W2_main_arg0 m ρ c),
       (h c _ (mem_uc main_arg1 (by decide))).trans (W2_main_arg1 m ρ c)⟩)

end Cert.KernelIdeal.Hand

end
-- ==== Proof.IdealValue.lean ====
/-
  The value of the program at the ideal instance: what the one pallas_call leaves, and its transpose against the reference.

  The reference is W @ x with x : 4096 × 64 and W : 4096 × 4096: entry (c, n) is Σ_k W[c, k] · x[k, n].

  The pallas_call fills a 64 × 4096 array by column blocks of 512.  Its grid is 4 × 2, point t = 2·i + j.  At every point the
  first window holds all of x; the second holds row block i of W and the third row block 4 + i of W (512 rows, all 4096
  columns); the result window is column block i + 4·j.  The body contracts x on its rows with the selected weight block on its
  columns, into a zero accumulator: it stores, at (n, r), Σ_k xblock[k, n] · wblock[r, k], with the second window's block at
  an even point and the third's at an odd one.  In both cases the weight block is row block (i + 4·j) of W, the very block
  index of the result window, so the stored value at (n, r) is

      OT[n, 512·b + r] = Σ_k x[k, n] · W[512·b + r, k],       b = i + 4·j,

  block b of ONE function OT of the two arguments.  The eight points write the eight column blocks b = 0 … 7 (block b at
  i = b mod 4, j = b div 4), which tile the array, so the array ends equal to OT.  The host then transposes: entry (c, n)
  of the result is OT[n, c] = Σ_k x[k, n] · W[c, k], and each term is the reference's term with its two factors exchanged.
  Multiplication of extended reals is commutative, so the two sums agree term by term; nothing about finiteness is used.
-/
import proofs.«144925_g11922829214311_fold_wed_m_296_30_alg».proof.Proof.IdealData
import proofs.«144925_g11922829214311_fold_wed_m_296_30_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! ## The array as one function of the arguments -/

/-- The 64 × 4096 array the pallas_call leaves, as one function of the two arguments: entry (n, c) is column n of x against
    row c of W, summed over the 4096 shared positions. -/
def OT (x : Vec Ideal S4096x64 .f32) (W : Vec Ideal S4096x4096 .f32) : Vec Ideal S64x4096 .f32 :=
  fun j => ∑ k : Fin 4096, x (ix2 k (j 0)) * W (ix2 (j 1) k)

theorem OT_apply (x : Vec Ideal S4096x64 .f32) (W : Vec Ideal S4096x4096 .f32) (n : Fin 64) (c : Fin 4096) :
    OT x W (ix2 n c) = ∑ k : Fin 4096, x (ix2 k n) * W (ix2 c k) := rfl

/-! ## The body's product at an index

The product contracts the left operand's axis 0 with the right operand's axis 1; the left operand's free axis 1 is the
result's axis 0 and the right operand's free axis 0 is the result's axis 1. -/

/-- The left operand's row is the contraction position. -/
theorem mm_lhs_contr (j : S64x512.Idx) (q : dot_S4096x64_S512x4096_S64x512_0_1_1_0_n_n.contr.Idx) :
    (dot_S4096x64_S512x4096_S64x512_0_1_1_0_n_n.lhsIdx j q 0).val = (q ⟨0, by decide⟩).val :=
  dot_S4096x64_S512x4096_S64x512_0_1_1_0_n_n.lhsIdx_val_of_single rfl j q

/-- The left operand's column is the result's row. -/
theorem mm_lhs_free (j : S64x512.Idx) (q : dot_S4096x64_S512x4096_S64x512_0_1_1_0_n_n.contr.Idx) :
    (dot_S4096x64_S512x4096_S64x512_0_1_1_0_n_n.lhsIdx j q 1).val = (j 0).val := by
  unfold DotDims.lhsIdx
  rw [dif_neg (show ¬(1 : Fin S4096x64.rank) ∈ dot_S4096x64_S512x4096_S64x512_0_1_1_0_n_n.lhsBatch by decide),
    dif_pos (show (1 : Fin S4096x64.rank) ∈ dot_S4096x64_S512x4096_S64x512_0_1_1_0_n_n.lhsNonContracting by decide)]
  rfl

/-- The right operand's column is the contraction position. -/
theorem mm_rhs_contr (j : S64x512.Idx) (q : dot_S4096x64_S512x4096_S64x512_0_1_1_0_n_n.contr.Idx) :
    (dot_S4096x64_S512x4096_S64x512_0_1_1_0_n_n.rhsIdx j q 1).val = (q ⟨0, by decide⟩).val :=
  dot_S4096x64_S512x4096_S64x512_0_1_1_0_n_n.rhsIdx_val_of_single rfl j q

/-- The right operand's row is the result's column. -/
theorem mm_rhs_free (j : S64x512.Idx) (q : dot_S4096x64_S512x4096_S64x512_0_1_1_0_n_n.contr.Idx) :
    (dot_S4096x64_S512x4096_S64x512_0_1_1_0_n_n.rhsIdx j q 0).val = (j 1).val := by
  unfold DotDims.rhsIdx
  rw [dif_neg (show ¬(0 : Fin S512x4096.rank) ∈ dot_S4096x64_S512x4096_S64x512_0_1_1_0_n_n.rhsBatch by decide),
    dif_pos (show (0 : Fin S512x4096.rank) ∈ dot_S4096x64_S512x4096_S64x512_0_1_1_0_n_n.rhsNonContracting by decide)]
  rfl

/-- The stored product at (n, r): column n of the x block against row r of the weight block; the zero accumulator adds
    nothing. -/
theorem pay1_apply (x0 : Vec Ideal S4096x64 .f32) (w0 : Vec Ideal S512x4096 .f32) (p : Fin 64) (q : Fin 512) :
    k0_pay1 x0 w0 (ix2 p q) = ∑ k : Fin 4096, x0 (ix2 k p) * w0 (ix2 q k) := by
  unfold k0_pay1
  simp only [matmul]
  rw [Ideal.matmul_constant_zero_apply (φ₁ := .f32) (φ₂ := .f32),
    ← Equiv.sum_comp (contrEquiv1 dot_S4096x64_S512x4096_S64x512_0_1_1_0_n_n 4096 rfl rfl).symm]
  refine Finset.sum_congr rfl fun k _ => ?_
  have hk := contrEquiv1_symm_val dot_S4096x64_S512x4096_S64x512_0_1_1_0_n_n 4096 rfl rfl k
  have el : dot_S4096x64_S512x4096_S64x512_0_1_1_0_n_n.lhsIdx (ix2 p q) ((contrEquiv1 dot_S4096x64_S512x4096_S64x512_0_1_1_0_n_n 4096 rfl rfl).symm k) = ix2 k p := funext fun a => Fin.ext (by
    match a with
    | ⟨0, _⟩ => exact (mm_lhs_contr _ _).trans hk
    | ⟨1, _⟩ => exact mm_lhs_free _ _)
  have er : dot_S4096x64_S512x4096_S64x512_0_1_1_0_n_n.rhsIdx (ix2 p q) ((contrEquiv1 dot_S4096x64_S512x4096_S64x512_0_1_1_0_n_n 4096 rfl rfl).symm k) = ix2 q k := funext fun a => Fin.ext (by
    match a with
    | ⟨0, _⟩ => exact mm_rhs_free _ _
    | ⟨1, _⟩ => exact (mm_rhs_contr _ _).trans hk)
  rw [el, er]

/-! ## One grid point -/

/-- What a point stores at y = (n, r), from the blocks it read, is the array's function at i = (n, 512·b + r), once the x
    block is x and the weight block is row block b of W. -/
theorem point_value (x : Vec Ideal S4096x64 .f32) (W : Vec Ideal S4096x4096 .f32)
    (xb : Vec Ideal S4096x64 .f32) (wb : Vec Ideal S512x4096 .f32) (b : Nat)
    (y : S64x512.Idx) (i : S64x4096.Idx)
    (hi0 : (i 0).val = (y 0).val) (hi1 : (i 1).val = b * 512 + (y 1).val)
    (hx : ∀ k : S4096x64.Idx, xb k = x k)
    (hw : ∀ (r : S512x4096.Idx) (k' : S4096x4096.Idx), (k' 0).val = b * 512 + (r 0).val → (k' 1).val = (r 1).val → wb r = W k') :
    k0_pay1 xb wb y = OT x W i := by
  obtain ⟨p, q, rfl⟩ : ∃ (p : Fin 64) (q : Fin 512), y = ix2 p q := ⟨y 0, y 1, eq_ix2 y⟩
  obtain ⟨n, cc, rfl⟩ : ∃ (n : Fin 64) (cc : Fin 4096), i = ix2 n cc := ⟨i 0, i 1, eq_ix2 i⟩
  obtain rfl : n = p := Fin.ext hi0
  rw [pay1_apply, OT_apply]
  refine Finset.sum_congr rfl fun k _ => ?_
  rw [hx, hw (ix2 q k) (ix2 cc k) hi1 rfl]

variable (m : (ℓ : Loc nD τ sig) → Buf (Elt Ideal) ℓ)

theorem zero_off : (![0, 0] : Fin 2 → Nat) = fun _ => 0 := funext fun a => by fin_cases a <;> rfl

/-- The index maps over the grid: the x window never moves; the weight windows stay at column block 0; the result window
    stays at row block 0, and its column block is the row block of the weight window the point multiplies by — the second
    window's at an even point, the third's at an odd one. -/
theorem index_facts : ∀ t : Fin cfg0.N,
    win0_0.index t (0 : Fin 2) = 0 ∧ win0_0.index t (1 : Fin 2) = 0
    ∧ win0_1.index t (1 : Fin 2) = 0 ∧ win0_2.index t (1 : Fin 2) = 0
    ∧ win0_3.index t (0 : Fin 2) = 0
    ∧ (t.val % 2 = 0 → win0_1.index t (0 : Fin 2) = win0_3.index t (1 : Fin 2))
    ∧ (¬ t.val % 2 = 0 → win0_2.index t (0 : Fin 2) = win0_3.index t (1 : Fin 2)) :=
  (by decide +kernel : ∀ t : Fin grid0.N, _)

/-- The x window's block is x. -/
theorem xblk_apply (c : Dev nD) (t : Fin cfg0.N) (k : S4096x64.Idx) :
    (iblk m c 0 t : Vec Ideal S4096x64 .f32) k = V m c main_arg0 k := by
  obtain ⟨e0, e1, -⟩ := index_facts t
  unfold iblk
  rw [View.read_apply, cast_eq]
  show V m c main_arg0 _ = V m c main_arg0 k
  congr 1
  funext a
  apply Fin.ext
  match a with
  | ⟨0, _⟩ => show win0_0.index t (0 : Fin 2) * 4096 + 1 * (k 0).val = (k 0).val; omega
  | ⟨1, _⟩ => show win0_0.index t (1 : Fin 2) * 64 + 1 * (k 1).val = (k 1).val; omega

/-- The second window's block at (r, k) is W at (512·(its block index) + r, k). -/
theorem w1blk_apply (c : Dev nD) (t : Fin cfg0.N) (r : S512x4096.Idx) (k' : S4096x4096.Idx)
    (h0 : (k' 0).val = win0_1.index t (0 : Fin 2) * 512 + (r 0).val) (h1 : (k' 1).val = (r 1).val) :
    (iblk m c 1 t : Vec Ideal S512x4096 .f32) r = V m c main_arg1 k' := by
  obtain ⟨-, -, e2, -⟩ := index_facts t
  unfold iblk
  rw [View.read_apply, cast_eq]
  show V m c main_arg1 _ = V m c main_arg1 k'
  congr 1
  funext a
  apply Fin.ext
  match a with
  | ⟨0, _⟩ => show win0_1.index t (0 : Fin 2) * 512 + 1 * (r 0).val = (k' 0).val; omega
  | ⟨1, _⟩ => show win0_1.index t (1 : Fin 2) * 4096 + 1 * (r 1).val = (k' 1).val; omega

/-- The third window's block likewise. -/
theorem w2blk_apply (c : Dev nD) (t : Fin cfg0.N) (r : S512x4096.Idx) (k' : S4096x4096.Idx)
    (h0 : (k' 0).val = win0_2.index t (0 : Fin 2) * 512 + (r 0).val) (h1 : (k' 1).val = (r 1).val) :
    (iblk m c 2 t : Vec Ideal S512x4096 .f32) r = V m c main_arg1 k' := by
  obtain ⟨-, -, -, e3, -⟩ := index_facts t
  unfold iblk
  rw [View.read_apply, cast_eq]
  show V m c main_arg1 _ = V m c main_arg1 k'
  congr 1
  funext a
  apply Fin.ext
  match a with
  | ⟨0, _⟩ => show win0_2.index t (0 : Fin 2) * 512 + 1 * (r 0).val = (k' 0).val; omega
  | ⟨1, _⟩ => show win0_2.index t (1 : Fin 2) * 4096 + 1 * (r 1).val = (k' 1).val; omega

/-- The weight block a point multiplies by is the row block of W that the result window's column block names. -/
theorem wsel_apply (c : Dev nD) (t : Fin cfg0.N) (r : S512x4096.Idx) (k' : S4096x4096.Idx)
    (h0 : (k' 0).val = win0_3.index t (1 : Fin 2) * 512 + (r 0).val) (h1 : (k' 1).val = (r 1).val) :
    wsel m c t r = V m c main_arg1 k' := by
  obtain ⟨-, -, -, -, -, ev, od⟩ := index_facts t
  unfold wsel
  by_cases he : t.val % 2 = 0
  · rw [if_pos he]
    exact w1blk_apply m c t r k' (by rw [ev he]; exact h0) h1
  · rw [if_neg he]
    exact w2blk_apply m c t r k' (by rw [od he]; exact h0) h1

/-- What point t writes back is block t of the one function of the arguments. -/
theorem flushed_out_eq (c : Dev nD) (t : Fin cfg0.N) :
    (dat0 m c).flushed 3 t = ((cfg0.win 3).blk t).view.read (Elt Ideal) (OT (V m c main_arg0) (V m c main_arg1)) := by
  show (cfg0.win 3).cut (grid0.coords t) ((dat0 m c).after 3 t) = _
  rw [after_3]
  unfold outO
  rw [View.canon_unit_zero zero_off]
  simp only [View.ld_unit_zero (S := S4096x64) zero_off, View.ld_unit_zero (S := S512x4096) zero_off]
  obtain ⟨-, -, -, -, e4, -⟩ := index_facts t
  funext j
  show k0_pay1 (iblk m c 0 t) (wsel m c t) ((cfg0.win 3).xinj (grid0.coords t) j)
    = OT (V m c main_arg0) (V m c main_arg1) (((cfg0.win 3).blk t).view.emb j)
  refine point_value (V m c main_arg0) (V m c main_arg1) (iblk m c 0 t) (wsel m c t) (win0_3.index t (1 : Fin 2)) _ _ ?_ ?_
    (xblk_apply m c t) (wsel_apply m c t)
  · show win0_3.index t (0 : Fin 2) * 64 + 1 * (j 0).val = (j 0).val
    omega
  · show win0_3.index t (1 : Fin 2) * 512 + 1 * (j 1).val = win0_3.index t (1 : Fin 2) * 512 + (j 1).val
    omega

/-! ## From the blocks to the array -/

/-- An index of the 64 × 4096 array is in point t's block iff each coordinate is in the block's range on its axis. -/
theorem mem_blk_out (t : Fin cfg0.N) (i : S64x4096.Idx) :
    i ∈ ((cfg0.win 3).blk t).view.set ↔ ∀ a : Fin 2, win0_3.index t a * S64x512.size a ≤ (i a).val ∧ (i a).val < win0_3.index t a * S64x512.size a + S64x512.size a := by
  show i ∈ ((View.whole main_call0_v0).slice (win0_3.rect t)).set ↔ _
  rw [View.set_slice_whole, Rect.mem_set_unit]
  exact Iff.rfl

/-- Each of the eight column blocks is some point's: block b is written at grid coordinates (b mod 4, b div 4). -/
theorem colblock_onto : ∀ b : Fin 8, ∃ t : Fin cfg0.N, win0_3.index t = ![0, b.val] :=
  (by decide +kernel : ∀ b : Fin 8, ∃ t : Fin grid0.N, win0_3.index t = ![0, b.val])

/-- Every index of the array is in the block of the point that writes its column block, (column) div 512. -/
theorem cover_out (i : S64x4096.Idx) : ∃ t : Fin cfg0.N, (cfg0.win 3).flush t = true ∧ i ∈ ((cfg0.win 3).blk t).view.set := by
  have hi0 : (i 0).val < 64 := (i 0).isLt
  have hi1 : (i 1).val < 4096 := (i 1).isLt
  obtain ⟨t, ht⟩ := colblock_onto ⟨(i 1).val / 512, by omega⟩
  have q0 : win0_3.index t (0 : Fin 2) = 0 := congrFun ht 0
  have q1 : win0_3.index t (1 : Fin 2) = (i 1).val / 512 := congrFun ht 1
  refine ⟨t, flush0_3 t, ?_⟩
  rw [mem_blk_out]
  intro a
  match a with
  | ⟨0, _⟩ => show win0_3.index t (0 : Fin 2) * 64 ≤ (i 0).val ∧ (i 0).val < win0_3.index t (0 : Fin 2) * 64 + 64; omega
  | ⟨1, _⟩ => show win0_3.index t (1 : Fin 2) * 512 ≤ (i 1).val ∧ (i 1).val < win0_3.index t (1 : Fin 2) * 512 + 512; omega

/-- The array the pallas_call leaves is the one function of the arguments. -/
theorem arr_out_eq (c : Dev nD) : (dat0 m c).arrAt 3 cfg0.N = OT (V m c main_arg0) (V m c main_arg1) :=
  (dat0 m c).arrAt_eq_of_cover 3 (OT (V m c main_arg0) (V m c main_arg1)) (fun t _ => flushed_out_eq m c t) cover_out

/-! ## The transpose against the reference -/

/-- Entry (c, n) of the transposed array is Σ_k x[k, n] · W[c, k]; the reference's is Σ_k W[c, k] · x[k, n]; the factors
    commute. -/
theorem transpose_OT (x : Vec Ideal S4096x64 .f32) (W : Vec Ideal S4096x4096 .f32) :
    transpose S4096x64 [1, 0] (OT x W) transposes_S64x4096_S4096x64_1_0
      = Cert.ReferenceIdeal.Read.val_main_v0 (F := Ideal) x W := by
  funext i
  obtain ⟨r, n, rfl⟩ : ∃ (r : Fin 4096) (n : Fin 64), i = ix2 r n := ⟨i 0, i 1, eq_ix2 i⟩
  rw [Cert.ReferenceIdeal.Read.val_main_v0_apply]
  refine (transpose_apply [1, 0] (OT x W) transposes_S64x4096_S4096x64_1_0 (ix2 r n) (ix2 n r) (fun b => by
    match b with
    | ⟨0, _⟩ => rfl
    | ⟨1, _⟩ => rfl)).trans ?_
  rw [OT_apply]
  refine Finset.sum_congr rfl fun k _ => ?_
  have el : Cert.ReferenceIdeal.Read.lidx_main_v0 (ix2 r n) k = ix2 r k := funext fun a => Fin.ext (by
    match a with
    | ⟨0, _⟩ => rfl
    | ⟨1, _⟩ => rfl)
  have er : Cert.ReferenceIdeal.Read.ridx_main_v0 (ix2 r n) k = ix2 k n := funext fun a => Fin.ext (by
    match a with
    | ⟨0, _⟩ => rfl
    | ⟨1, _⟩ => rfl)
  rw [el, er]
  exact mul_comm _ _

/-- The program's result is the reference's. -/
theorem kres_eq (m : (ℓ : Loc nD τ sig) → Buf (Elt Ideal) ℓ) (c : Dev nD) :
    kres (F := Ideal) m c
      = Cert.ReferenceIdeal.Read.val_main_v0 (F := Ideal) (m ((c : Thread nD τ).loc main_arg0)) (m ((c : Thread nD τ).loc main_arg1)) := by
  unfold kres
  rw [arr_out_eq]
  exact transpose_OT (V m c main_arg0) (V m c main_arg1)

end Cert.KernelIdeal.Hand

end
-- ==== Proof.lean ====
/-
  The kernel computes, on a 4 × 2 grid, the 64 × 4096 array OT[n, c] = Σ_k x[k, n] · W[c, k] column block by column
  block — each grid point one 64 × 512 block, the product of the whole 4096 × 64 input x (contracted on its rows) with a
  512 × 4096 row block of the weight W (contracted on its columns), taken through one of two windows on the SAME weight
  array according to the point's parity — and returns its transpose.  The reference is the matrix product W · x, whose
  entry (c, n) is Σ_k W[c, k] · x[k, n].  On the extended reals the two are equal term by term by commutativity of the
  product; the sums run over the same k in both, so nothing about finiteness is used and the precondition is never
  opened.

  The three frames: each kernel program's run (Proof/BitsRun.lean at the word-level instance, Proof/IdealRun.lean at the
  ideal one) ends with the argument arrays as launched; the reference is a single host operation that writes only its
  result.  The idealization rewrote nothing, so there is nothing to preserve.  The value claim joins the ideal run's
  result (the transpose of what the grid's write-backs leave, Proof/IdealData.lean `kres`) to the reference's through
  Proof/IdealValue.lean `kres_eq`.
-/
import proofs.«144925_g11922829214311_fold_wed_m_296_30_alg».proof.Defs
import proofs.«144925_g11922829214311_fold_wed_m_296_30_alg».proof.Proof.Gen.Kernel
import proofs.«144925_g11922829214311_fold_wed_m_296_30_alg».proof.Proof.Gen.KernelIdeal
import proofs.«144925_g11922829214311_fold_wed_m_296_30_alg».proof.Proof.Gen.ReferenceIdeal
import proofs.«144925_g11922829214311_fold_wed_m_296_30_alg».proof.Proof.Gen.Pre_finite_inputs
import proofs.«144925_g11922829214311_fold_wed_m_296_30_alg».proof.Proof.Gen.ReferenceIdeal.Run
import proofs.«144925_g11922829214311_fold_wed_m_296_30_alg».proof.Proof.Gen.ReferenceIdeal.Read
import proofs.«144925_g11922829214311_fold_wed_m_296_30_alg».proof.Proof.BitsRun
import proofs.«144925_g11922829214311_fold_wed_m_296_30_alg».proof.Proof.IdealRun
import proofs.«144925_g11922829214311_fold_wed_m_296_30_alg».proof.Proof.IdealValue
import Idealize.ShloMosaic.Adequacy
import Idealize.ShloMosaic.Init

noncomputable section

namespace Cert.Proof

open Idealize.ShloMosaic Idealize.ShloMosaic.TcCoe Idealize.SL.Sem

/-- The word-level kernel runs to the end and leaves x and W as launched. -/
theorem frame_k : Cert.frame_Kernel := fun m ρ _ =>
  (θ_run Cert.Kernel.defs _ _).mono (fun _ h c => (h c).2) (Cert.Kernel.Hand.run_main (F := Bits) m ρ)

/-- So does the idealized kernel. -/
theorem frame_ki : Cert.frame_KernelIdeal := fun m ρ _ =>
  (θ_run Cert.KernelIdeal.defs _ _).mono (fun _ h c => (h c).2) (Cert.KernelIdeal.Hand.run_main (F := Ideal) m ρ)

/-- The reference, one host matrix product, writes only its result. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x and W both programs end with the same result: the kernel's transposed block products
    are the reference's matrix product (`kres_eq`). -/
theorem algebraic : Cert.algebraic_KernelIdeal_ReferenceIdeal := by
  intro m ρ m' ρ' _ hagree
  refine ⟨fun c => Cert.KernelIdeal.Hand.kres (F := Ideal) m c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.KernelIdeal.Hand.kres_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
